-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v76) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8388608x4 : Shape := ⟨2, ![8388608, 4]⟩
abbrev S8388608x1 : Shape := ⟨2, ![8388608, 1]⟩
abbrev S_ : Shape := ⟨0, ![]⟩

class Facts : Prop where
  bcast_S_S8388608x4 : S_.BroadcastsInDim S8388608x4 (![] : Fin 0 → Fin S8388608x4.rank)
  reducesTo_S8388608x4_S_d0_1 : S8388608x4.ReducesTo [0, 1] S_
  h_S_ : 0 < S_.numel
  bcast_S_S8388608x1 : S_.BroadcastsInDim S8388608x1 (![] : Fin 0 → Fin S8388608x1.rank)
  reducesTo_S8388608x1_S_d0_1 : S8388608x1.ReducesTo [0, 1] S_

variable [Facts]

def fn {F : FTy → Type} [FloatOps F] (main_arg0 : FVec F S8388608x4 .f32) (main_arg1 : FVec F S8388608x1 .f32) : IVec S_ 1 :=
  let main_v0 : FVec F S8388608x4 .f32 := Host.absf main_arg0
  let main_cst : FVec F S_ .f32 := constant S_ .f32 0x7F800000#32
  let main_v1 : FVec F S8388608x4 .f32 := broadcastInDim S8388608x4 ![] bcast_S_S8388608x4 main_cst
  let main_v2 : IVec S8388608x4 1 := cmpf .olt main_v0 main_v1
  let main_c : IVec S_ 1 := constantI S_ 1 1#1
  let main_v3 : IVec S_ 1 := (fun x v => Host.reduce IntOp.andi x v reducesTo_S8388608x4_S_d0_1 h_S_) main_v2 main_c
  let main_v4 : FVec F S8388608x1 .f32 := Host.absf main_arg1
  let main_cst_0 : FVec F S_ .f32 := constant S_ .f32 0x7F800000#32
  let main_v5 : FVec F S8388608x1 .f32 := broadcastInDim S8388608x1 ![] bcast_S_S8388608x1 main_cst_0
  let main_v6 : IVec S8388608x1 1 := cmpf .olt main_v4 main_v5
  let main_c_1 : IVec S_ 1 := constantI S_ 1 1#1
  let main_v7 : IVec S_ 1 := (fun x v => Host.reduce IntOp.andi x v reducesTo_S8388608x1_S_d0_1 h_S_) main_v6 main_c_1
  let main_v8 : IVec S_ 1 := andi main_v3 main_v7
  main_v8
-- ==== Kernel.lean ====
abbrev S8388608x4 : Shape := ⟨2, ![8388608, 4]⟩
abbrev S8388608x1 : Shape := ⟨2, ![8388608, 1]⟩
abbrev S4096x4 : Shape := ⟨2, ![4096, 4]⟩
abbrev S4096x1 : Shape := ⟨2, ![4096, 1]⟩
abbrev S4096 : Shape := ⟨1, ![4096]⟩

abbrev nBuf : Space → Nat
  | .hbm => 3
  | .vmem => 6
  | .smem => 0
  | _ => 0

abbrev bufTy : (tb : Table) → Fin (tcTables nBuf tb) → BufTy
  | .hbm, ⟨0, _⟩ => ⟨S8388608x4, .f32⟩
  | .hbm, ⟨1, _⟩ => ⟨S8388608x1, .f32⟩
  | .hbm, ⟨2, _⟩ => ⟨S8388608x4, .f32⟩
  | .local _ .vmem, ⟨0, _⟩ => ⟨S4096x4, .f32⟩
  | .local _ .vmem, ⟨1, _⟩ => ⟨S4096x4, .f32⟩
  | .local _ .vmem, ⟨2, _⟩ => ⟨S4096x1, .f32⟩
  | .local _ .vmem, ⟨3, _⟩ => ⟨S4096x1, .f32⟩
  | .local _ .vmem, ⟨4, _⟩ => ⟨S4096x4, .f32⟩
  | .local _ .vmem, ⟨5, _⟩ => ⟨S4096x4, .f32⟩
  | _, _ => ⟨S8388608x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![2048], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x4 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x4 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S4096x4_S4096x1_0_0 : ∀ a, (![0, 0] : Fin 2 → Nat) a + S4096x1.size a ≤ S4096x4.size a
  h_S4096x1 : 0 < S4096x1.numel
  shapeCasts_S4096x1_S4096 : S4096x1.ShapeCasts S4096
  inb_S4096x4_S4096x1_0_1 : ∀ a, (![0, 1] : Fin 2 → Nat) a + S4096x1.size a ≤ S4096x4.size a
  inb_S4096x4_S4096x1_0_2 : ∀ a, (![0, 2] : Fin 2 → Nat) a + S4096x1.size a ≤ S4096x4.size a
  inb_S4096x4_S4096x1_0_3 : ∀ a, (![0, 3] : Fin 2 → Nat) a + S4096x1.size a ≤ S4096x4.size a
  inb_S4096x1_S4096x1_0_0 : ∀ a, (![0, 0] : Fin 2 → Nat) a + S4096x1.size a ≤ S4096x1.size a
  shapeCasts_S4096_S4096x1 : S4096.ShapeCasts S4096x1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x4.size a ≤ S8388608x4.size a
  hwx0_0 : ∀ i : grid0.Coords, EltTy.bits .f32 = 32 ∨ (Rect.block (s := S8388608x4) S4096x4.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x1.size a ≤ S8388608x1.size a
  hwx0_1 : ∀ i : grid0.Coords, EltTy.bits .f32 = 32 ∨ (Rect.block (s := S8388608x1) S4096x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4096x4.size a ≤ S8388608x4.size a
  hwx0_2 : ∀ i : grid0.Coords, EltTy.bits .f32 = 32 ∨ (Rect.block (s := S8388608x4) S4096x4.size (cc0_transform_2 i) (hinb0_2 i)).WholeWords (EltTy.packing .f32)

variable [Facts₀]

abbrev win0_0 : Pipeline.Window sig grid0 :=
  Pipeline.Window.ofSpec (Memref.whole main_arg0) S4096x4.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4096x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S4096x4.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8388608x4 : Shape := ⟨2, ![8388608, 4]⟩
abbrev S8388608x1 : Shape := ⟨2, ![8388608, 1]⟩
abbrev S8388608 : Shape := ⟨1, ![8388608]⟩
abbrev S_ : Shape := ⟨0, ![]⟩
abbrev S8388608x2 : Shape := ⟨2, ![8388608, 2]⟩

abbrev nBuf : Space → Nat
  | .hbm => 96
  | .vmem => 0
  | .smem => 0
  | _ => 0

abbrev bufTy : (tb : Table) → Fin (tcTables nBuf tb) → BufTy
  | .hbm, ⟨0, _⟩ => ⟨S8388608x4, .f32⟩
  | .hbm, ⟨1, _⟩ => ⟨S8388608x1, .f32⟩
  | .hbm, ⟨2, _⟩ => ⟨S8388608x1, .f32⟩
  | .hbm, ⟨3, _⟩ => ⟨S8388608, .f32⟩
  | .hbm, ⟨4, _⟩ => ⟨S8388608x1, .f32⟩
  | .hbm, ⟨5, _⟩ => ⟨S8388608, .f32⟩
  | .hbm, ⟨6, _⟩ => ⟨S8388608x1, .f32⟩
  | .hbm, ⟨7, _⟩ => ⟨S8388608, .f32⟩
  | .hbm, ⟨8, _⟩ => ⟨S8388608, .f32⟩
  | .hbm, ⟨9, _⟩ => ⟨S8388608, .f32⟩
  | .hbm, ⟨10, _⟩ => ⟨S8388608, .f32⟩
  | .hbm, ⟨11, _⟩ => ⟨S_, .f32⟩
  | .hbm, ⟨12, _⟩ => ⟨S8388608, .f32⟩
  | .hbm, ⟨13, _⟩ => ⟨S8388608, .f32⟩
  | .hbm, ⟨14, _⟩ => ⟨S_, .f32⟩
  | .hbm, ⟨15, _⟩ => ⟨S8388608, .f32⟩
  | .hbm, ⟨16, _⟩ => ⟨S8388608, .f32⟩
  | .hbm, ⟨17, _⟩ => ⟨S_, .f32⟩
  | .hbm, ⟨18, _⟩ => ⟨S8388608, .f32⟩
  | .hbm, ⟨19, _⟩ => ⟨S_, .f32⟩
  | .hbm, ⟨20, _⟩ => ⟨S8388608, .f32⟩
  | .hbm, ⟨21, _⟩ => ⟨S8388608, .f32⟩
  | .hbm, ⟨22, _⟩ => ⟨S_, .f32⟩
  | .hbm, ⟨23, _⟩ => ⟨S8388608, .f32⟩
  | .hbm, ⟨24, _⟩ => ⟨S8388608, .f32⟩
  | .hbm, ⟨25, _⟩ => ⟨S_, .f32⟩
  | .hbm, ⟨26, _⟩ => ⟨S8388608, .f32⟩
  | .hbm, ⟨27, _⟩ => ⟨S8388608, .f32⟩
  | .hbm, ⟨28, _⟩ => ⟨S8388608, .f32⟩
  | .hbm, ⟨29, _⟩ => ⟨S8388608, .f32⟩
  | .hbm, ⟨30, _⟩ => ⟨S8388608, .f32⟩
  | .hbm, ⟨31, _⟩ => ⟨S_, .f32⟩
  | .hbm, ⟨32, _⟩ => ⟨S8388608, .f32⟩
  | .hbm, ⟨33, _⟩ => ⟨S8388608, .f32⟩
  | .hbm, ⟨34, _⟩ => ⟨S8388608, .f32⟩
  | .hbm, ⟨35, _⟩ => ⟨S8388608, .f32⟩
  | .hbm, ⟨36, _⟩ => ⟨S_, .f32⟩
  | .hbm, ⟨37, _⟩ => ⟨S8388608, .f32⟩
  | .hbm, ⟨38, _⟩ => ⟨S8388608, .f32⟩
  | .hbm, ⟨39, _⟩ => ⟨S8388608, .f32⟩
  | .hbm, ⟨40, _⟩ => ⟨S_, .f32⟩
  | .hbm, ⟨41, _⟩ => ⟨S8388608, .f32⟩
  | .hbm, ⟨42, _⟩ => ⟨S8388608, .f32⟩
  | .hbm, ⟨43, _⟩ => ⟨S8388608, .f32⟩
  | .hbm, ⟨44, _⟩ => ⟨S8388608, .f32⟩
  | .hbm, ⟨45, _⟩ => ⟨S_, .f32⟩
  | .hbm, ⟨46, _⟩ => ⟨S8388608, .f32⟩
  | .hbm, ⟨47, _⟩ => ⟨S_, .f32⟩
  | .hbm, ⟨48, _⟩ => ⟨S8388608, .f32⟩
  | .hbm, ⟨49, _⟩ => ⟨S8388608, .f32⟩
  | .hbm, ⟨50, _⟩ => ⟨S8388608, .f32⟩
  | .hbm, ⟨51, _⟩ => ⟨S_, .f32⟩
  | .hbm, ⟨52, _⟩ => ⟨S8388608, .f32⟩
  | .hbm, ⟨53, _⟩ => ⟨S8388608, .f32⟩
  | .hbm, ⟨54, _⟩ => ⟨S_, .f32⟩
  | .hbm, ⟨55, _⟩ => ⟨S8388608, .f32⟩
  | .hbm, ⟨56, _⟩ => ⟨S8388608, .f32⟩
  | .hbm, ⟨57, _⟩ => ⟨S8388608, .f32⟩
  | .hbm, ⟨58, _⟩ => ⟨S_, .f32⟩
  | .hbm, ⟨59, _⟩ => ⟨S8388608, .f32⟩
  | .hbm, ⟨60, _⟩ => ⟨S8388608, .f32⟩
  | .hbm, ⟨61, _⟩ => ⟨S_, .f32⟩
  | .hbm, ⟨62, _⟩ => ⟨S8388608, .f32⟩
  | .hbm, ⟨63, _⟩ => ⟨S8388608, .f32⟩
  | .hbm, ⟨64, _⟩ => ⟨S8388608, .f32⟩
  | .hbm, ⟨65, _⟩ => ⟨S8388608, .f32⟩
  | .hbm, ⟨66, _⟩ => ⟨S8388608, .f32⟩
  | .hbm, ⟨67, _⟩ => ⟨S8388608, .f32⟩
  | .hbm, ⟨68, _⟩ => ⟨S8388608, .f32⟩
  | .hbm, ⟨69, _⟩ => ⟨S8388608, .f32⟩
  | .hbm, ⟨70, _⟩ => ⟨S8388608, .f32⟩
  | .hbm, ⟨71, _⟩ => ⟨S8388608, .f32⟩
  | .hbm, ⟨72, _⟩ => ⟨S8388608, .f32⟩
  | .hbm, ⟨73, _⟩ => ⟨S8388608, .f32⟩
  | .hbm, ⟨74, _⟩ => ⟨S8388608, .f32⟩
  | .hbm, ⟨75, _⟩ => ⟨S8388608, .f32⟩
  | .hbm, ⟨76, _⟩ => ⟨S8388608, .f32⟩
  | .hbm, ⟨77, _⟩ => ⟨S8388608, .f32⟩
  | .hbm, ⟨78, _⟩ => ⟨S8388608, .f32⟩
  | .hbm, ⟨79, _⟩ => ⟨S8388608, .f32⟩
  | .hbm, ⟨80, _⟩ => ⟨S8388608x1, .f32⟩
  | .hbm, ⟨81, _⟩ => ⟨S8388608x1, .f32⟩
  | .hbm, ⟨82, _⟩ => ⟨S8388608x1, .f32⟩
  | .hbm, ⟨83, _⟩ => ⟨S8388608x1, .f32⟩
  | .hbm, ⟨84, _⟩ => ⟨S8388608x4, .f32⟩
  | .hbm, ⟨85, _⟩ => ⟨S_, .f32⟩
  | .hbm, ⟨86, _⟩ => ⟨S8388608x4, .f32⟩
  | .hbm, ⟨87, _⟩ => ⟨S8388608x4, .f32⟩
  | .hbm, ⟨88, _⟩ => ⟨S8388608x4, .f32⟩
  | .hbm, ⟨89, _⟩ => ⟨S8388608x2, .f32⟩
  | .hbm, ⟨90, _⟩ => ⟨S8388608x2, .f32⟩
  | .hbm, ⟨91, _⟩ => ⟨S_, .f32⟩
  | .hbm, ⟨92, _⟩ => ⟨S8388608x2, .f32⟩
  | .hbm, ⟨93, _⟩ => ⟨S8388608x2, .f32⟩
  | .hbm, ⟨94, _⟩ => ⟨S8388608x2, .f32⟩
  | .hbm, ⟨95, _⟩ => ⟨S8388608x4, .f32⟩
  | _, _ => ⟨S8388608x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst : Ref sig .tc := ⟨.hbm, 11, rfl⟩
abbrev main_v9 : Ref sig .tc := ⟨.hbm, 12, rfl⟩
abbrev main_v10 : Ref sig .tc := ⟨.hbm, 13, rfl⟩
abbrev main_cst_0 : Ref sig .tc := ⟨.hbm, 14, rfl⟩
abbrev main_v11 : Ref sig .tc := ⟨.hbm, 15, rfl⟩
abbrev main_v12 : Ref sig .tc := ⟨.hbm, 16, rfl⟩
abbrev main_cst_1 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_v15 : Ref sig .tc := ⟨.hbm, 21, rfl⟩
abbrev main_cst_3 : Ref sig .tc := ⟨.hbm, 22, rfl⟩
abbrev main_v16 : Ref sig .tc := ⟨.hbm, 23, rfl⟩
abbrev main_v17 : Ref sig .tc := ⟨.hbm, 24, rfl⟩
abbrev main_cst_4 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_5 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_6 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_cst_7 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_cst_8 : Ref sig .tc := ⟨.hbm, 45, rfl⟩
abbrev main_v34 : Ref sig .tc := ⟨.hbm, 46, rfl⟩
abbrev main_cst_9 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_cst_10 : Ref sig .tc := ⟨.hbm, 51, rfl⟩
abbrev main_v38 : Ref sig .tc := ⟨.hbm, 52, rfl⟩
abbrev main_v39 : Ref sig .tc := ⟨.hbm, 53, rfl⟩
abbrev main_cst_11 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_cst_12 : Ref sig .tc := ⟨.hbm, 58, rfl⟩
abbrev main_v43 : Ref sig .tc := ⟨.hbm, 59, rfl⟩
abbrev main_v44 : Ref sig .tc := ⟨.hbm, 60, rfl⟩
abbrev main_cst_13 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_cst_14 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_cst_15 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩

abbrev nD : Nat := 1
abbrev τ : Topo := Topo.v7x

variable {F : FTy → Type} [FloatOps F]

class Facts₀ : Prop where
  slices_S8388608x4_S8388608x1_0_1 : S8388608x4.Slices ![0, 1] S8388608x1
  shapeCasts_S8388608x1_S8388608 : S8388608x1.ShapeCasts S8388608
  slices_S8388608x4_S8388608x1_0_2 : S8388608x4.Slices ![0, 2] S8388608x1
  slices_S8388608x4_S8388608x1_0_3 : S8388608x4.Slices ![0, 3] S8388608x1
  bcast_S_S8388608 : S_.BroadcastsInDim S8388608 (![] : Fin 0 → Fin S8388608.rank)
  bcast_S8388608_S8388608x1_0 : S8388608.BroadcastsInDim S8388608x1 (![0] : Fin 1 → Fin S8388608x1.rank)
  concatenates_S8388608x1_S8388608x1_S8388608x1_S8388608x1_S8388608x4_d1 : Shape.Concatenates [S8388608x1, S8388608x1, S8388608x1, S8388608x1] S8388608x4 1
  bcast_S_S8388608x4 : S_.BroadcastsInDim S8388608x4 (![] : Fin 0 → Fin S8388608x4.rank)
  slices_S8388608x4_S8388608x2_0_2 : S8388608x4.Slices ![0, 2] S8388608x2
  slices_S8388608x4_S8388608x2_0_0 : S8388608x4.Slices ![0, 0] S8388608x2
  bcast_S_S8388608x2 : S_.BroadcastsInDim S8388608x2 (![] : Fin 0 → Fin S8388608x2.rank)
  concatenates_S8388608x2_S8388608x2_S8388608x4_d1 : Shape.Concatenates [S8388608x2, S8388608x2] S8388608x4 1

variable [Facts₀]

class Facts : Prop extends Facts₀ where

variable [Facts]
-- ==== Proof.Step.lean ====
/-
  One semi-implicit Euler step of a rotary (Furuta) pendulum, row by row, on the extended reals.

  A row of the state is (θ, β, a, b): the arm angle, the pendulum angle and their velocities a = dθ/dt, b = dβ/dt;
  a row of the action is the motor voltage command u. With s = sin β and c = cos β the equations of motion are
      M(β) · (dd1, dd2)ᵀ = (r1, r2)ᵀ ,   M = [[m11, m12], [m12, J2]],
      m11 = J1 + ¼ m l² s²,   m12 = ½ m lᵣ l c,
      r1 = τ − n1,            r2 = −n2 − g2,
      n1 = ½ m l s (l a b c − lᵣ b²),   n2 = ½ m l s (−½ l a² c),   g2 = ½ m g l s,
      τ  = Kₜ (−5 u − Kₘ a) / Rₘ ,
  solved by the 2×2 adjugate formula (det = m11 J2 − m12²), and the step is
      a' = a + dd1·Δt,  b' = b + dd2·Δt,  θ' = θ + a'·Δt,  β' = β + b'·Δt,
  the new row being (θ', β', a', b'): the positions advance with the NEW velocities.

  Every constant is the exact value of its single-precision word; no word is ever evaluated here, the same word
  standing on both sides of every equation below. The quantities are written once, in one grouping of their
  products; a program that groups a product differently computes the same extended real, multiplication on the
  extended reals being associative whatever infinities the factors hold.
-/
import Idealize.ShloMosaic.PureOps.Ideal
import Idealize.ShloMosaic.PureOps.Ideal.Laws
import Idealize.ShloMosaic.Lib.ValueIdx

noncomputable section

namespace Cert.Pendulum

open Idealize.ShloMosaic Idealize.ShloMosaic.ValueIdx

/-! ## The constants: each the exact value of its word -/

/-- ¼ m l², the factor of sin² β in the arm's inertia. -/
abbrev kSinSq : EReal := Ideal.ofBits .f32 0x38D1646A#32
/-- J1, the arm's own inertia. -/
abbrev kJ1 : EReal := Ideal.ofBits .f32 0x3971CD37#32
/-- J2, the pendulum's inertia: the constant entry of the mass matrix. -/
abbrev kJ2 : EReal := Ideal.ofBits .f32 0x390B98D0#32
/-- ½ m lᵣ l, the factor of cos β in the coupling entry. -/
abbrev kCouple : EReal := Ideal.ofBits .f32 0x3909F8BD#32
/-- ½ m l. -/
abbrev kHalfML : EReal := Ideal.ofBits .f32 0x3ACAE643#32
/-- l, the pendulum's length. -/
abbrev kL : EReal := Ideal.ofBits .f32 0x3E041893#32
/-- lᵣ, the arm's length. -/
abbrev kLr : EReal := Ideal.ofBits .f32 0x3DAE147B#32
/-- −½ l. -/
abbrev kNegHalfL : EReal := Ideal.ofBits .f32 0xBD841893#32
/-- ½ m g l, the factor of sin β in the gravity torque. -/
abbrev kGrav : EReal := Ideal.ofBits .f32 0x3C788D45#32
/-- −5, the voltage per unit of action. -/
abbrev kVolt : EReal := Ideal.ofBits .f32 0xC0A00000#32
/-- Kₜ = Kₘ, the motor's torque and back-EMF constant. -/
abbrev kMotor : EReal := Ideal.ofBits .f32 0x3D2C0831#32
/-- Rₘ, the motor's resistance. -/
abbrev kRes : EReal := Ideal.ofBits .f32 0x41066666#32
/-- Δt, the time step. -/
abbrev kDt : EReal := Ideal.ofBits .f32 0x3C23D70A#32

/-! ## The quantities of one row -/

/-- The arm's entry of the mass matrix. -/
def m11 (β : EReal) : EReal := kJ1 + kSinSq * (Ideal.sin β * Ideal.sin β)
/-- The coupling entry of the mass matrix. -/
def m12 (β : EReal) : EReal := kCouple * Ideal.cos β
/-- The Coriolis and centrifugal torque on the arm. -/
def n1 (β a b : EReal) : EReal := kHalfML * Ideal.sin β * (kL * a * b * Ideal.cos β - kLr * (b * b))
/-- The centrifugal torque on the pendulum. -/
def n2 (β a : EReal) : EReal := kHalfML * Ideal.sin β * (kNegHalfL * (a * a) * Ideal.cos β)
/-- The gravity torque on the pendulum. -/
def g2 (β : EReal) : EReal := kGrav * Ideal.sin β
/-- The motor's torque on the arm. -/
def tau (a u : EReal) : EReal := Ideal.div (kMotor * (kVolt * u - kMotor * a)) kRes
/-- The right-hand side of the arm's equation, from the Coriolis torque `N1`. -/
def rhs1 (a u N1 : EReal) : EReal := tau a u - N1
/-- The right-hand side of the pendulum's equation, from the centrifugal torque `N2` and the gravity torque `G2`. -/
def rhs2 (N2 G2 : EReal) : EReal := -N2 - G2
/-- The determinant of the mass matrix [[M11, M12], [M12, J2]]. -/
def det (M11 M12 : EReal) : EReal := M11 * kJ2 - M12 * M12
/-- The arm's acceleration: the first row of the adjugate applied to (R1, R2), over the determinant. -/
def acc1 (M11 M12 R1 R2 : EReal) : EReal := Ideal.div (kJ2 * R1 - M12 * R2) (det M11 M12)
/-- The pendulum's acceleration: the second row of the adjugate applied to (R1, R2), over the determinant. -/
def acc2 (M11 M12 R1 R2 : EReal) : EReal := Ideal.div (-M12 * R1 + M11 * R2) (det M11 M12)
/-- The arm's new velocity. -/
def vel1 (β a b u : EReal) : EReal :=
  a + acc1 (m11 β) (m12 β) (rhs1 a u (n1 β a b)) (rhs2 (n2 β a) (g2 β)) * kDt
/-- The pendulum's new velocity. -/
def vel2 (β a b u : EReal) : EReal :=
  b + acc2 (m11 β) (m12 β) (rhs1 a u (n1 β a b)) (rhs2 (n2 β a) (g2 β)) * kDt

/-- THE NEW ROW (θ', β', a', b') from the old row (θ, β, a, b) and the action u. -/
def step (θ β a b u : EReal) : Fin 4 → EReal :=
  ![θ + vel1 β a b u * kDt, β + vel2 β a b u * kDt, vel1 β a b u, vel2 β a b u]

/-! ## The whole array -/

/-- The stepped state of `n` independent rows: entry (p, k) is component `k` of the step of row `p` of the state
    `X` under row `p` of the action `U`. A row of the result depends on that row of the operands alone. -/
def G {n : ℕ} (X : (⟨2, ![n, 4]⟩ : Shape).Idx → EReal) (U : (⟨2, ![n, 1]⟩ : Shape).Idx → EReal) :
    (⟨2, ![n, 4]⟩ : Shape).Idx → EReal :=
  fun i => step (X (ix2 (i 0) 0)) (X (ix2 (i 0) 1)) (X (ix2 (i 0) 2)) (X (ix2 (i 0) 3)) (U (ix2 (i 0) 0)) (i 1)

theorem G_apply {n : ℕ} (X : (⟨2, ![n, 4]⟩ : Shape).Idx → EReal) (U : (⟨2, ![n, 1]⟩ : Shape).Idx → EReal)
    (p : Fin n) (k : Fin 4) :
    G X U (ix2 p k) = step (X (ix2 p 0)) (X (ix2 p 1)) (X (ix2 p 2)) (X (ix2 p 3)) (U (ix2 p 0)) k := rfl

end Cert.Pendulum

end
-- ==== Proof.LibColumns.lean ====
/-
  Columns of a matrix block, read at an entry — layout facts with no program in sight, every size arbitrary.

  A body that handles a block [a, b] one column at a time loads column k through the unit-stride rectangle of
  sizes [a, 1] at offsets [0, k], views the loaded [a, 1] column as a vector [a], computes on vectors, views a
  result vector [a] as a column [a, 1] again and stores it through such a rectangle. Row-major, a vector's entry p
  and a column's entry (p, 0) are the same cell, so both views keep the row; and the rectangle places its own
  entry (p, 0) at entry (p, k) of the block.
-/
import Idealize.ShloMosaic.Lib.Pipeline.Value
import Idealize.ShloMosaic.Lib.ValueIdx

noncomputable section

namespace Cert.Columns

open Idealize.ShloMosaic Idealize.ShloMosaic.ValueIdx

/-- A vector [a] viewed as a column [a, 1], read at row `p`: the vector's entry `p`. -/
theorem cast_vec_col {α : Type} {a : ℕ} (v : (⟨1, ![a]⟩ : Shape).Idx → α)
    (h : (⟨1, ![a]⟩ : Shape).ShapeCasts ⟨2, ![a, 1]⟩) (p : Fin a) (q : Fin 1) :
    shapeCast ⟨2, ![a, 1]⟩ v h (ix2 p q) = v (ix1 p) := by
  refine shapeCast_apply v h (ix2 p q) (ix1 p) ?_
  rw [Shape.rowMajor_val_one, Shape.rowMajor_val_two]
  show p.val = p.val * 1 + q.val
  have := q.isLt
  omega

/-- A column [a, 1] viewed as a vector [a], read at entry `p`: the column's row `p`. -/
theorem cast_col_vec {α : Type} {a : ℕ} (w : (⟨2, ![a, 1]⟩ : Shape).Idx → α)
    (h : (⟨2, ![a, 1]⟩ : Shape).ShapeCasts ⟨1, ![a]⟩) (p : Fin a) :
    shapeCast ⟨1, ![a]⟩ w h (ix1 p) = w (ix2 p 0) := by
  refine shapeCast_apply w h (ix1 p) (ix2 p 0) ?_
  rw [Shape.rowMajor_val_one, Shape.rowMajor_val_two]
  show p.val * 1 + 0 = p.val
  omega

/-- The rectangle of column `k` of a block [a, b] places its entry (p, 0) at entry (p, k) of the block. -/
theorem col_emb {a b : ℕ} (k : ℕ) (hk : k < b)
    (inb : ∀ d, (![0, k] : Fin 2 → ℕ) d + (![a, 1] : Fin 2 → ℕ) d ≤ (⟨2, ![a, b]⟩ : Shape).size d)
    (p : Fin a) (q : Fin 1) :
    (Rect.unit (s := ⟨2, ![a, b]⟩) ![0, k] ![a, 1] inb).emb (ix2 p q) = ix2 p ⟨k, hk⟩ := by
  funext d
  apply Fin.ext
  match d with
  | ⟨0, _⟩ => show 0 + 1 * p.val = p.val; omega
  | ⟨1, _⟩ => show k + 1 * q.val = k; have := q.isLt; omega

/-- Column `k` of a block, loaded through its rectangle, read at row `p`: the block's entry (p, k). -/
theorem ld_col {Val : EltTy → Type} {e : EltTy} {a b : ℕ} (X : (⟨2, ![a, b]⟩ : Shape).Idx → Val e) (k : ℕ) (hk : k < b)
    (inb : ∀ d, (![0, k] : Fin 2 → ℕ) d + (![a, 1] : Fin 2 → ℕ) d ≤ (⟨2, ![a, b]⟩ : Shape).size d)
    (p : Fin a) (q : Fin 1) :
    View.ld X (Rect.unit (s := ⟨2, ![a, b]⟩) ![0, k] ![a, 1] inb) (ix2 p q) = X (ix2 p ⟨k, hk⟩) :=
  congrArg X (col_emb k hk inb p q)

/-- The loaded column viewed as a vector, read at entry `p`: the block's entry (p, k). -/
theorem ld_col_vec {Val : EltTy → Type} {e : EltTy} {a b : ℕ} (X : (⟨2, ![a, b]⟩ : Shape).Idx → Val e) (k : ℕ) (hk : k < b)
    (inb : ∀ d, (![0, k] : Fin 2 → ℕ) d + (![a, 1] : Fin 2 → ℕ) d ≤ (⟨2, ![a, b]⟩ : Shape).size d)
    (h : (⟨2, ![a, 1]⟩ : Shape).ShapeCasts ⟨1, ![a]⟩) (p : Fin a) :
    shapeCast ⟨1, ![a]⟩ (View.ld X (Rect.unit (s := ⟨2, ![a, b]⟩) ![0, k] ![a, 1] inb)) h (ix1 p) = X (ix2 p ⟨k, hk⟩) :=
  (cast_col_vec _ h p).trans (ld_col X k hk inb p 0)

end Cert.Columns

end
-- ==== Proof.KernelBlock.lean ====
/-
  What the kernel's body leaves in its output block, entry by entry: one Euler step of each row.

  The body handles a block of 4096 rows one column at a time. It loads the four state columns and the action
  column, views each as a vector, computes the mass matrix entries, the torques, the two accelerations and the
  new velocities and positions as vectors, views each result as a column again and stores it in its place. Every
  arithmetic operation acts entry by entry, and a column viewed as a vector keeps its rows, so entry (p, k) of
  the block the body leaves is component k of the step of row p of the loaded blocks.

  The body groups three products from the left where the step is written with a square — (c·s)·s for c·s²,
  (lᵣ·b)·b for lᵣ·b², (−½l·a)·a for −½l·a² — and writes a negation as a difference from zero. Multiplication on the
  extended reals is associative and 0 − x = −x there, with no condition on x.
-/
import proofs.«141720_j82085414961423_2_alg».proof.Proof.Gen.KernelIdeal.Frame
import proofs.«141720_j82085414961423_2_alg».proof.Proof.Step
import proofs.«141720_j82085414961423_2_alg».proof.Proof.LibColumns
import Idealize.ShloMosaic.Lib.Pipeline.Value
import Idealize.ShloMosaic.Lib.ValueIdx
import Idealize.ShloMosaic.PureOps.Ideal.Laws

noncomputable section

namespace Cert.KernelIdeal.Block

open Cert.KernelIdeal Cert.KernelIdeal.Gen Idealize.ShloMosaic Idealize.ShloMosaic.ValueIdx Cert.Pendulum Cert.Columns

variable (x0 : Vec Ideal S4096x4 .f32) (x1 : Vec Ideal S4096x1 .f32) (p : Fin 4096)

/-! ## The loaded columns, as vectors, at row `p` -/

/-- The arm angle θ of row `p`. -/
theorem theta_at : k0_pay4 (F := Ideal) (View.ld x0 r0_0) (ix1 p) = x0 (ix2 p 0) := by
  unfold k0_pay4; exact ld_col_vec (Val := Elt Ideal) (e := .f32) x0 0 (by omega) _ _ p
/-- The pendulum angle β of row `p`. -/
theorem beta_at : k0_pay5 (F := Ideal) (View.ld x0 r0_1) (ix1 p) = x0 (ix2 p 1) := by
  unfold k0_pay5; exact ld_col_vec (Val := Elt Ideal) (e := .f32) x0 1 (by omega) _ _ p
/-- The arm velocity a of row `p`. -/
theorem dalpha_at : k0_pay6 (F := Ideal) (View.ld x0 r0_2) (ix1 p) = x0 (ix2 p 2) := by
  unfold k0_pay6; exact ld_col_vec (Val := Elt Ideal) (e := .f32) x0 2 (by omega) _ _ p
/-- The pendulum velocity b of row `p`. -/
theorem dbeta_at : k0_pay7 (F := Ideal) (View.ld x0 r0_3) (ix1 p) = x0 (ix2 p 3) := by
  unfold k0_pay7; exact ld_col_vec (Val := Elt Ideal) (e := .f32) x0 3 (by omega) _ _ p
/-- The action u of row `p`. -/
theorem act_at : k0_pay8 (F := Ideal) (View.ld x1 r0_4) (ix1 p) = x1 (ix2 p 0) := by
  unfold k0_pay8; exact ld_col_vec (Val := Elt Ideal) (e := .f32) x1 0 (by omega) _ _ p

/-! ## The quantities of row `p` that depend on the loaded columns alone -/

theorem cos_at : k0_pay9 (F := Ideal) (View.ld x0 r0_1) (ix1 p) = Ideal.cos (x0 (ix2 p 1)) :=
  congrArg Ideal.cos (beta_at x0 p)

theorem sin_at : k0_pay10 (F := Ideal) (View.ld x0 r0_1) (ix1 p) = Ideal.sin (x0 (ix2 p 1)) :=
  congrArg Ideal.sin (beta_at x0 p)

/-- The arm's inertia: (c·s)·s is c·(s·s). -/
theorem m11_at : k0_pay11 (F := Ideal) (View.ld x0 r0_1) (ix1 p) = m11 (x0 (ix2 p 1)) := by
  have e : k0_pay11 (F := Ideal) (View.ld x0 r0_1) (ix1 p)
      = kJ1 + kSinSq * k0_pay10 (F := Ideal) (View.ld x0 r0_1) (ix1 p) * k0_pay10 (F := Ideal) (View.ld x0 r0_1) (ix1 p) := rfl
  rw [e, sin_at, mul_assoc]
  rfl

theorem m12_at : k0_pay12 (F := Ideal) (View.ld x0 r0_1) (ix1 p) = m12 (x0 (ix2 p 1)) := by
  have e : k0_pay12 (F := Ideal) (View.ld x0 r0_1) (ix1 p) = kCouple * k0_pay9 (F := Ideal) (View.ld x0 r0_1) (ix1 p) := rfl
  rw [e, cos_at]
  rfl

/-- The Coriolis torque: (lᵣ·b)·b is lᵣ·(b·b). -/
theorem n1_at : k0_pay13 (F := Ideal) (View.ld x0 r0_1) (View.ld x0 r0_2) (View.ld x0 r0_3) (ix1 p)
    = n1 (x0 (ix2 p 1)) (x0 (ix2 p 2)) (x0 (ix2 p 3)) := by
  have e : k0_pay13 (F := Ideal) (View.ld x0 r0_1) (View.ld x0 r0_2) (View.ld x0 r0_3) (ix1 p)
      = kHalfML * k0_pay10 (F := Ideal) (View.ld x0 r0_1) (ix1 p)
        * (kL * k0_pay6 (F := Ideal) (View.ld x0 r0_2) (ix1 p) * k0_pay7 (F := Ideal) (View.ld x0 r0_3) (ix1 p)
              * k0_pay9 (F := Ideal) (View.ld x0 r0_1) (ix1 p)
            - kLr * k0_pay7 (F := Ideal) (View.ld x0 r0_3) (ix1 p) * k0_pay7 (F := Ideal) (View.ld x0 r0_3) (ix1 p)) := rfl
  rw [e, sin_at, cos_at, dalpha_at, dbeta_at, mul_assoc kLr]
  rfl

/-- The centrifugal torque: (−½l·a)·a is −½l·(a·a). -/
theorem n2_at : k0_pay14 (F := Ideal) (View.ld x0 r0_1) (View.ld x0 r0_2) (ix1 p)
    = n2 (x0 (ix2 p 1)) (x0 (ix2 p 2)) := by
  have e : k0_pay14 (F := Ideal) (View.ld x0 r0_1) (View.ld x0 r0_2) (ix1 p)
      = kHalfML * k0_pay10 (F := Ideal) (View.ld x0 r0_1) (ix1 p)
        * (kNegHalfL * k0_pay6 (F := Ideal) (View.ld x0 r0_2) (ix1 p) * k0_pay6 (F := Ideal) (View.ld x0 r0_2) (ix1 p)
            * k0_pay9 (F := Ideal) (View.ld x0 r0_1) (ix1 p)) := rfl
  rw [e, sin_at, cos_at, dalpha_at, mul_assoc kNegHalfL]
  rfl

theorem g2_at : k0_pay15 (F := Ideal) (View.ld x0 r0_1) (ix1 p) = g2 (x0 (ix2 p 1)) := by
  have e : k0_pay15 (F := Ideal) (View.ld x0 r0_1) (ix1 p) = kGrav * k0_pay10 (F := Ideal) (View.ld x0 r0_1) (ix1 p) := rfl
  rw [e, sin_at]
  rfl

/-! ## Solving for the accelerations and stepping, on any vectors -/

section Solve

variable (v1 v3 v5 v7 v9 v16 v18 v29 v36 v38 : FVec Ideal S4096 .f32)

theorem rhs1_at : k0_pay16 (F := Ideal) v5 v9 v29 (Scalar.ofBits .f32 0xC0A00000#32) (ix1 p)
    = rhs1 (v5 (ix1 p)) (v9 (ix1 p)) (v29 (ix1 p)) := rfl

/-- The pendulum's right-hand side: 0 − N2 is −N2. -/
theorem rhs2_at : k0_pay17 (F := Ideal) v36 v38 (ix1 p) = rhs2 (v36 (ix1 p)) (v38 (ix1 p)) := by
  have e : k0_pay17 (F := Ideal) v36 v38 (ix1 p) = Ideal.ofBits .f32 0x00000000#32 - v36 (ix1 p) - v38 (ix1 p) := rfl
  rw [e, Ideal.ofBits_zero_f32, zero_sub]
  rfl

theorem det_at : k0_pay18 (F := Ideal) v16 v18 (ix1 p) = det (v16 (ix1 p)) (v18 (ix1 p)) := rfl

/-- The arm's new velocity. -/
theorem vel1_at : k0_pay19 (F := Ideal) v5 v9 v16 v18 v29 v36 v38 (Scalar.ofBits .f32 0xC0A00000#32) (ix1 p)
    = v5 (ix1 p) + acc1 (v16 (ix1 p)) (v18 (ix1 p)) (rhs1 (v5 (ix1 p)) (v9 (ix1 p)) (v29 (ix1 p)))
        (rhs2 (v36 (ix1 p)) (v38 (ix1 p))) * kDt := by
  have e : k0_pay19 (F := Ideal) v5 v9 v16 v18 v29 v36 v38 (Scalar.ofBits .f32 0xC0A00000#32) (ix1 p)
      = v5 (ix1 p) + Ideal.div (kJ2 * k0_pay16 (F := Ideal) v5 v9 v29 (Scalar.ofBits .f32 0xC0A00000#32) (ix1 p)
            - v18 (ix1 p) * k0_pay17 (F := Ideal) v36 v38 (ix1 p)) (k0_pay18 (F := Ideal) v16 v18 (ix1 p)) * kDt := rfl
  rw [e, rhs1_at, rhs2_at, det_at]
  rfl

/-- The pendulum's new velocity: 0 − M12 is −M12. -/
theorem vel2_at : k0_pay20 (F := Ideal) v5 v7 v9 v16 v18 v29 v36 v38 (Scalar.ofBits .f32 0xC0A00000#32) (ix1 p)
    = v7 (ix1 p) + acc2 (v16 (ix1 p)) (v18 (ix1 p)) (rhs1 (v5 (ix1 p)) (v9 (ix1 p)) (v29 (ix1 p)))
        (rhs2 (v36 (ix1 p)) (v38 (ix1 p))) * kDt := by
  have e : k0_pay20 (F := Ideal) v5 v7 v9 v16 v18 v29 v36 v38 (Scalar.ofBits .f32 0xC0A00000#32) (ix1 p)
      = v7 (ix1 p) + Ideal.div ((Ideal.ofBits .f32 0x00000000#32 - v18 (ix1 p)) * k0_pay16 (F := Ideal) v5 v9 v29 (Scalar.ofBits .f32 0xC0A00000#32) (ix1 p)
            + v16 (ix1 p) * k0_pay17 (F := Ideal) v36 v38 (ix1 p)) (k0_pay18 (F := Ideal) v16 v18 (ix1 p)) * kDt := rfl
  rw [e, rhs1_at, rhs2_at, det_at, Ideal.ofBits_zero_f32, zero_sub]
  rfl

/-- The pendulum's new angle, as a vector. -/
theorem beta_new_at : k0_pay21 (F := Ideal) v3 v5 v7 v9 v16 v18 v29 v36 v38 (Scalar.ofBits .f32 0xC0A00000#32) (ix1 p)
    = v3 (ix1 p) + k0_pay20 (F := Ideal) v5 v7 v9 v16 v18 v29 v36 v38 (Scalar.ofBits .f32 0xC0A00000#32) (ix1 p) * kDt := rfl

/-- The arm's new angle, as a column. -/
theorem theta_new_at (q : Fin 1) : k0_pay22 (F := Ideal) v1 v5 v9 v16 v18 v29 v36 v38 (Scalar.ofBits .f32 0xC0A00000#32) (ix2 p q)
    = v1 (ix1 p) + k0_pay19 (F := Ideal) v5 v9 v16 v18 v29 v36 v38 (Scalar.ofBits .f32 0xC0A00000#32) (ix1 p) * kDt := by
  unfold k0_pay22
  exact cast_vec_col _ _ p q

end Solve

/-! ## The four stored columns are the four components of the step -/

/-- Column 3: the pendulum's new velocity. -/
theorem col3 (x : S4096x1.Idx) : k0_pay3 (F := Ideal) (k0_pay20 (k0_pay6 (View.ld x0 r0_2)) (k0_pay7 (View.ld x0 r0_3)) (k0_pay8 (View.ld x1 r0_4)) (k0_pay11 (View.ld x0 r0_1)) (k0_pay12 (View.ld x0 r0_1)) (k0_pay13 (View.ld x0 r0_1) (View.ld x0 r0_2) (View.ld x0 r0_3)) (k0_pay14 (View.ld x0 r0_1) (View.ld x0 r0_2)) (k0_pay15 (View.ld x0 r0_1)) (Scalar.ofBits .f32 0xC0A00000#32)) x = Pendulum.G x0 x1 (r0_3.emb x) := by
  obtain ⟨p, q, rfl⟩ : ∃ (p : Fin 4096) (q : Fin 1), x = ix2 p q := ⟨x 0, x 1, eq_ix2 x⟩
  refine Eq.trans ?_ (congrArg (Pendulum.G x0 x1) (col_emb 3 (by omega) _ p q)).symm
  unfold k0_pay3
  refine (cast_vec_col _ _ p q).trans ?_
  rw [vel2_at, dalpha_at, dbeta_at, act_at, m11_at, m12_at, n1_at, n2_at, g2_at]
  rfl

/-- Column 2: the arm's new velocity. -/
theorem col2 (x : S4096x1.Idx) : k0_pay2 (F := Ideal) (k0_pay19 (k0_pay6 (View.ld x0 r0_2)) (k0_pay8 (View.ld x1 r0_4)) (k0_pay11 (View.ld x0 r0_1)) (k0_pay12 (View.ld x0 r0_1)) (k0_pay13 (View.ld x0 r0_1) (View.ld x0 r0_2) (View.ld x0 r0_3)) (k0_pay14 (View.ld x0 r0_1) (View.ld x0 r0_2)) (k0_pay15 (View.ld x0 r0_1)) (Scalar.ofBits .f32 0xC0A00000#32)) x = Pendulum.G x0 x1 (r0_2.emb x) := by
  obtain ⟨p, q, rfl⟩ : ∃ (p : Fin 4096) (q : Fin 1), x = ix2 p q := ⟨x 0, x 1, eq_ix2 x⟩
  refine Eq.trans ?_ (congrArg (Pendulum.G x0 x1) (col_emb 2 (by omega) _ p q)).symm
  unfold k0_pay2
  refine (cast_vec_col _ _ p q).trans ?_
  rw [vel1_at, dalpha_at, act_at, m11_at, m12_at, n1_at, n2_at, g2_at]
  rfl

/-- Column 1: the pendulum's new angle, advanced with its NEW velocity. -/
theorem col1 (x : S4096x1.Idx) : k0_pay1 (F := Ideal) (k0_pay21 (k0_pay5 (View.ld x0 r0_1)) (k0_pay6 (View.ld x0 r0_2)) (k0_pay7 (View.ld x0 r0_3)) (k0_pay8 (View.ld x1 r0_4)) (k0_pay11 (View.ld x0 r0_1)) (k0_pay12 (View.ld x0 r0_1)) (k0_pay13 (View.ld x0 r0_1) (View.ld x0 r0_2) (View.ld x0 r0_3)) (k0_pay14 (View.ld x0 r0_1) (View.ld x0 r0_2)) (k0_pay15 (View.ld x0 r0_1)) (Scalar.ofBits .f32 0xC0A00000#32)) x = Pendulum.G x0 x1 (r0_1.emb x) := by
  obtain ⟨p, q, rfl⟩ : ∃ (p : Fin 4096) (q : Fin 1), x = ix2 p q := ⟨x 0, x 1, eq_ix2 x⟩
  refine Eq.trans ?_ (congrArg (Pendulum.G x0 x1) (col_emb 1 (by omega) _ p q)).symm
  unfold k0_pay1
  refine (cast_vec_col _ _ p q).trans ?_
  rw [beta_new_at, vel2_at, beta_at, dalpha_at, dbeta_at, act_at, m11_at, m12_at, n1_at, n2_at, g2_at]
  rfl

/-- Column 0: the arm's new angle, advanced with its NEW velocity. -/
theorem col0 (x : S4096x1.Idx) : k0_pay22 (F := Ideal) (k0_pay4 (View.ld x0 r0_0)) (k0_pay6 (View.ld x0 r0_2)) (k0_pay8 (View.ld x1 r0_4)) (k0_pay11 (View.ld x0 r0_1)) (k0_pay12 (View.ld x0 r0_1)) (k0_pay13 (View.ld x0 r0_1) (View.ld x0 r0_2) (View.ld x0 r0_3)) (k0_pay14 (View.ld x0 r0_1) (View.ld x0 r0_2)) (k0_pay15 (View.ld x0 r0_1)) (Scalar.ofBits .f32 0xC0A00000#32) x = Pendulum.G x0 x1 (r0_0.emb x) := by
  obtain ⟨p, q, rfl⟩ : ∃ (p : Fin 4096) (q : Fin 1), x = ix2 p q := ⟨x 0, x 1, eq_ix2 x⟩
  refine Eq.trans ?_ (congrArg (Pendulum.G x0 x1) (col_emb 0 (by omega) _ p q)).symm
  rw [theta_new_at, vel1_at, theta_at, dalpha_at, act_at, m11_at, m12_at, n1_at, n2_at, g2_at]
  rfl

/-! ## The block the body leaves -/

/-- THE BLOCK AFTER THE BODY is the step of the loaded blocks, row by row: each stored column is that column of
    the step, and the four columns cover the block. -/
theorem out_eq : out0_2 (F := Ideal) x0 x1 = Pendulum.G x0 x1 := by
  funext y
  unfold out0_2
  refine View.canon_apply_of_pieces (Val := Elt Ideal) (S := S4096x4) (e := .f32) (Pendulum.G x0 x1) _ ?_ y (cover0_2 _ _ _ _ y)
  intro pc hpc
  simp only [List.mem_cons, List.not_mem_nil, or_false] at hpc
  rcases hpc with rfl | rfl | rfl | rfl
  · exact col3 x0 x1
  · exact col2 x0 x1
  · exact col1 x0 x1
  · exact col0 x0 x1

end Cert.KernelIdeal.Block

end
-- ==== Proof.KernelArray.lean ====
/-
  From blocks to the array: after the kernel's run its result array is the step of the argument arrays, row by row.

  The grid has 2048 points; point t stages rows 4096·t … 4096·t + 4095 of the state (all four columns), the same
  rows of the action, and writes the same rows of the result back. The body turns the staged blocks into the step
  of their rows, and a row of the step depends on that row of the operands alone: so what point t writes back
  is block t of the step of the WHOLE argument arrays. Every row r lies in the block of point r / 4096, so the
  blocks cover the result array, which therefore ends holding the step of the arguments.
-/
import proofs.«141720_j82085414961423_2_alg».proof.Proof.Gen.KernelIdeal.Value
import proofs.«141720_j82085414961423_2_alg».proof.Proof.KernelBlock

noncomputable section

namespace Cert.KernelIdeal.Array

open Cert.KernelIdeal Cert.KernelIdeal.Gen Idealize.ShloMosaic Idealize.ShloMosaic.TcCoe Idealize.SL.Sem
open Idealize.ShloMosaic.ValueIdx Cert.Pendulum
open Idealize.ShloMosaic.Pipeline (Dat)

variable (m : (ℓ : Loc nD τ sig) → Buf (Elt Ideal) ℓ) (ρ : Dev nD → PrngReg)

/-- The block index maps, decided over the 2048 grid points: every window's block of point `t` is block `t` along
    the rows and the only block along the columns. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0)

/-- Row `p` of point `t`'s blocks is row 4096·t + p of the arrays. -/
def row (t : Fin cfg0.N) (p : Fin 4096) : Fin 8388608 :=
  ⟨t.val * 4096 + p.val, by have ht : t.val < 2048 := t.isLt; have hp := p.isLt; omega⟩

/-- The state window's block of point `t` places its entry (p, k) at entry (4096·t + p, k) of the state. -/
theorem emb_state (t : Fin cfg0.N) (p : Fin 4096) (k : Fin 4) :
    ((cfg0.win 0).blk t).view.emb (ix2 p k) = ix2 (row t p) k := by
  obtain ⟨e0, e1, -, -, -, -⟩ := idx_facts t
  funext a; apply Fin.ext
  match a with
  | ⟨0, _⟩ => show win0_0.index t (0 : Fin 2) * 4096 + 1 * p.val = t.val * 4096 + p.val; omega
  | ⟨1, _⟩ => show win0_0.index t (1 : Fin 2) * 4 + 1 * k.val = k.val; omega

/-- The action window's block of point `t` places its entry (p, 0) at entry (4096·t + p, 0) of the action. -/
theorem emb_action (t : Fin cfg0.N) (p : Fin 4096) (q : Fin 1) :
    ((cfg0.win 1).blk t).view.emb (ix2 p q) = ix2 (row t p) q := by
  obtain ⟨-, -, e2, e3, -, -⟩ := idx_facts t
  funext a; apply Fin.ext
  match a with
  | ⟨0, _⟩ => show win0_1.index t (0 : Fin 2) * 4096 + 1 * p.val = t.val * 4096 + p.val; omega
  | ⟨1, _⟩ => show win0_1.index t (1 : Fin 2) * 1 + 1 * q.val = q.val; omega

/-- The result window's block of point `t` places its entry (p, k) at entry (4096·t + p, k) of the result. -/
theorem emb_result (t : Fin cfg0.N) (p : Fin 4096) (k : Fin 4) :
    ((cfg0.win 2).blk t).view.emb (ix2 p k) = ix2 (row t p) k := by
  obtain ⟨-, -, -, -, e4, e5⟩ := idx_facts t
  funext a; apply Fin.ext
  match a with
  | ⟨0, _⟩ => show win0_2.index t (0 : Fin 2) * 4096 + 1 * p.val = t.val * 4096 + p.val; omega
  | ⟨1, _⟩ => show win0_2.index t (1 : Fin 2) * 4 + 1 * k.val = k.val; omega

/-- WHAT POINT `t` WRITES BACK is block `t` of the step of the argument arrays as the region finds them: the body
    steps the rows of the staged blocks, and those are rows 4096·t + p of the arrays. -/
theorem flushed_eq (c : Dev nD) (t : Fin cfg0.N) :
    (dats m 0 c).flushed 2 t
      = ((cfg0.win 2).blk t).view.read (Elt Ideal) (Pendulum.G (n := 8388608) (V m c main_arg0) (V m c main_arg1)) := by
  rw [Cert.KernelIdeal.Value.flushed2]
  funext j
  obtain ⟨p, k, rfl⟩ : ∃ (p : Fin 4096) (k : Fin 4), j = ix2 p k := ⟨j 0, j 1, eq_ix2 j⟩
  show out0_2 (F := Ideal) (iblk m c 0 t) (iblk m c 1 t) (ix2 p k)
    = Pendulum.G (n := 8388608) (V m c main_arg0) (V m c main_arg1) (((cfg0.win 2).blk t).view.emb (ix2 p k))
  rw [emb_result t p k, Pendulum.G_apply]
  refine (congrFun (Cert.KernelIdeal.Block.out_eq (iblk m c 0 t) (iblk m c 1 t)) (ix2 p k)).trans ?_
  rw [Pendulum.G_apply]
  have h0 : ∀ k' : Fin 4, iblk m c 0 t (ix2 p k') = V m c main_arg0 (ix2 (row t p) k') := fun k' =>
    congrArg (V m c main_arg0) (emb_state t p k')
  have h1 : iblk m c 1 t (ix2 p 0) = V m c main_arg1 (ix2 (row t p) 0) :=
    congrArg (V m c main_arg1) (emb_action t p 0)
  rw [h0 0, h0 1, h0 2, h0 3, h1]

/-- An index of the result array is in point `t`'s block iff each coordinate is in the block's range on its axis. -/
theorem mem_blk (t : Fin cfg0.N) (i : S8388608x4.Idx) :
    i ∈ ((cfg0.win 2).blk t).view.set ↔ ∀ a : Fin 2, win0_2.index t a * S4096x4.size a ≤ (i a).val
      ∧ (i a).val < win0_2.index t a * S4096x4.size a + S4096x4.size a := by
  show i ∈ ((View.whole main_v0).slice (win0_2.rect t)).set ↔ _
  rw [View.set_slice_whole, Rect.mem_set_unit]
  exact Iff.rfl

/-- THE BLOCKS COVER THE RESULT: row r is in the block of point r / 4096, and every point writes back. -/
theorem cover (i : S8388608x4.Idx) :
    ∃ t : Fin cfg0.N, (cfg0.win 2).flush t = true ∧ i ∈ ((cfg0.win 2).blk t).view.set := by
  have hi0 : (i 0).val < 8388608 := (i 0).isLt
  have hi1 : (i 1).val < 4 := (i 1).isLt
  have hlt : (i 0).val / 4096 < 2048 := by omega
  refine ⟨⟨(i 0).val / 4096, hlt⟩, flush0_2 _, ?_⟩
  obtain ⟨-, -, -, -, e4, e5⟩ := idx_facts ⟨(i 0).val / 4096, hlt⟩
  have e4' : win0_2.index ⟨(i 0).val / 4096, hlt⟩ (0 : Fin 2) = (i 0).val / 4096 := e4
  rw [mem_blk]
  intro a
  match a with
  | ⟨0, _⟩ =>
    show win0_2.index ⟨(i 0).val / 4096, hlt⟩ (0 : Fin 2) * 4096 ≤ (i 0).val
      ∧ (i 0).val < win0_2.index ⟨(i 0).val / 4096, hlt⟩ (0 : Fin 2) * 4096 + 4096
    omega
  | ⟨1, _⟩ =>
    show win0_2.index ⟨(i 0).val / 4096, hlt⟩ (1 : Fin 2) * 4 ≤ (i 1).val
      ∧ (i 1).val < win0_2.index ⟨(i 0).val / 4096, hlt⟩ (1 : Fin 2) * 4 + 4
    omega

/-- THE RESULT ARRAY after the run: the step of the argument arrays, row by row. -/
theorem final (c : Dev nD) :
    (dats m 0 c).arrAt 2 cfg0.N
      = Pendulum.G (n := 8388608) (m ((c : Thread nD τ).loc main_arg0)) (m ((c : Thread nD τ).loc main_arg1)) :=
  (dats m 0 c).arrAt_eq_of_cover 2 _ (fun t _ => flushed_eq m c t) cover

/-- The kernel's run: every weakly fair execution terminates with the result array at the step of the arguments,
    the arguments unchanged. -/
theorem run : θ_run defs (onTc (τ := τ) (main (F := Ideal))) ⟨m, fun _ => 0, ρ⟩ fun r => ∀ c : Dev nD,
      r.2.mem ((c : Thread nD τ).loc main_v0)
        = Pendulum.G (n := 8388608) (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩)
    (Cert.KernelIdeal.Value.run_blocks m ρ)

end Cert.KernelIdeal.Array

end
-- ==== Proof.Reference.lean ====
/-
  The reference program, stage by stage, at one row: its result is one Euler step of each row.

  The reference slices the state's columns out as vectors, computes the mass matrix entries, the torques and the
  two accelerations as vectors (every operation entry by entry), stacks (a, b, dd1, dd2) as the four columns of a
  derivative array, advances the whole state by it, and then advances the two position columns AGAIN from the old
  positions with the new velocities, joining new positions and new velocities. Of the first advance only the two
  velocity columns are kept, so the result's row p is (θ + a'·Δt, β + b'·Δt, a', b'): the step.

  The reference subtracts a zero vector (the arm has no gravity torque) from the arm's right-hand side: x − 0 = x
  on the extended reals, with no condition on x.
-/
import proofs.«141720_j82085414961423_2_alg».proof.Proof.Gen.ReferenceIdeal.Read
import proofs.«141720_j82085414961423_2_alg».proof.Proof.Step
import Idealize.ShloMosaic.Lib.Pipeline.Value
import Idealize.ShloMosaic.Lib.ValueIdx
import Idealize.ShloMosaic.PureOps.Ideal.Laws

noncomputable section

namespace Cert.ReferenceIdeal.Rows

open Cert.ReferenceIdeal Cert.ReferenceIdeal.Gen Cert.ReferenceIdeal.Read Idealize.ShloMosaic Idealize.ShloMosaic.ValueIdx Cert.Pendulum

variable (X : (⟨S8388608x4, .f32⟩ : BufTy).Contents (Elt Ideal)) (U : (⟨S8388608x1, .f32⟩ : BufTy).Contents (Elt Ideal)) (p : Fin 8388608)

/-! ## The columns sliced out as vectors, at row `p` -/

/-- The pendulum angle β of row `p`: column 1. -/
theorem beta_at : val_main_v1 (F := Ideal) X (ix1 p) = X (ix2 p 1) := by
  rw [val_main_v1_apply, val_main_v0_apply]
  refine congrArg X (funext fun d => Fin.ext ?_)
  match d with
  | ⟨0, _⟩ => show p.val / 1 = p.val; omega
  | ⟨1, _⟩ => rfl

/-- The arm velocity a of row `p`: column 2. -/
theorem dalpha_at : val_main_v3 (F := Ideal) X (ix1 p) = X (ix2 p 2) := by
  rw [val_main_v3_apply, val_main_v2_apply]
  refine congrArg X (funext fun d => Fin.ext ?_)
  match d with
  | ⟨0, _⟩ => show p.val / 1 = p.val; omega
  | ⟨1, _⟩ => rfl

/-- The pendulum velocity b of row `p`: column 3. -/
theorem dbeta_at : val_main_v5 (F := Ideal) X (ix1 p) = X (ix2 p 3) := by
  rw [val_main_v5_apply, val_main_v4_apply]
  refine congrArg X (funext fun d => Fin.ext ?_)
  match d with
  | ⟨0, _⟩ => show p.val / 1 = p.val; omega
  | ⟨1, _⟩ => rfl

/-- The action u of row `p`. -/
theorem act_at : val_main_v37 (F := Ideal) U (ix1 p) = U (ix2 p 0) := by
  rw [val_main_v37_apply]
  refine congrArg U (funext fun d => Fin.ext ?_)
  match d with
  | ⟨0, _⟩ => show p.val / 1 = p.val; omega
  | ⟨1, _⟩ => rfl

/-! ## The quantities of row `p` -/

theorem cos_at : val_main_v6 (F := Ideal) X (ix1 p) = Ideal.cos (X (ix2 p 1)) := congrArg Ideal.cos (beta_at X p)

theorem sin_at : val_main_v7 (F := Ideal) X (ix1 p) = Ideal.sin (X (ix2 p 1)) := congrArg Ideal.sin (beta_at X p)

theorem m11_at : val_main_v12 (F := Ideal) X (ix1 p) = m11 (X (ix2 p 1)) := by
  have e : val_main_v12 (F := Ideal) X (ix1 p) = kJ1 + kSinSq * (val_main_v7 (F := Ideal) X (ix1 p) * val_main_v7 (F := Ideal) X (ix1 p)) := rfl
  rw [e, sin_at]
  rfl

theorem m12_at : val_main_v15 (F := Ideal) X (ix1 p) = m12 (X (ix2 p 1)) := by
  have e : val_main_v15 (F := Ideal) X (ix1 p) = kCouple * val_main_v6 (F := Ideal) X (ix1 p) := rfl
  rw [e, cos_at]
  rfl

theorem n1_at : val_main_v26 (F := Ideal) X (ix1 p) = n1 (X (ix2 p 1)) (X (ix2 p 2)) (X (ix2 p 3)) := by
  have e : val_main_v26 (F := Ideal) X (ix1 p) = kHalfML * val_main_v7 (F := Ideal) X (ix1 p) * (kL * val_main_v3 (F := Ideal) X (ix1 p) * val_main_v5 (F := Ideal) X (ix1 p) * val_main_v6 (F := Ideal) X (ix1 p) - kLr * (val_main_v5 (F := Ideal) X (ix1 p) * val_main_v5 (F := Ideal) X (ix1 p))) := rfl
  rw [e, sin_at, cos_at, dalpha_at, dbeta_at]
  rfl

theorem n2_at : val_main_v33 (F := Ideal) X (ix1 p) = n2 (X (ix2 p 1)) (X (ix2 p 2)) := by
  have e : val_main_v33 (F := Ideal) X (ix1 p) = kHalfML * val_main_v7 (F := Ideal) X (ix1 p) * (kNegHalfL * (val_main_v3 (F := Ideal) X (ix1 p) * val_main_v3 (F := Ideal) X (ix1 p)) * val_main_v6 (F := Ideal) X (ix1 p)) := rfl
  rw [e, sin_at, cos_at, dalpha_at]
  rfl

theorem g2_at : val_main_v36 (F := Ideal) X (ix1 p) = g2 (X (ix2 p 1)) := by
  have e : val_main_v36 (F := Ideal) X (ix1 p) = kGrav * val_main_v7 (F := Ideal) X (ix1 p) := rfl
  rw [e, sin_at]
  rfl

/-- The arm's right-hand side: the zero gravity torque subtracted changes nothing. -/
theorem rhs1_at : val_main_v48 (F := Ideal) X U (ix1 p) = rhs1 (X (ix2 p 2)) (U (ix2 p 0)) (n1 (X (ix2 p 1)) (X (ix2 p 2)) (X (ix2 p 3))) := by
  have e : val_main_v48 (F := Ideal) X U (ix1 p)
      = Ideal.div (kMotor * (kVolt * val_main_v37 (F := Ideal) U (ix1 p) - kMotor * val_main_v3 (F := Ideal) X (ix1 p))) kRes - val_main_v26 (F := Ideal) X (ix1 p) - Ideal.ofBits .f32 0x00000000#32 := rfl
  rw [e, act_at, dalpha_at, n1_at, Ideal.ofBits_zero_f32, sub_zero]
  rfl

theorem rhs2_at : val_main_v50 (F := Ideal) X (ix1 p) = rhs2 (n2 (X (ix2 p 1)) (X (ix2 p 2))) (g2 (X (ix2 p 1))) := by
  have e : val_main_v50 (F := Ideal) X (ix1 p) = -val_main_v33 (F := Ideal) X (ix1 p) - val_main_v36 (F := Ideal) X (ix1 p) := rfl
  rw [e, n2_at, g2_at]
  rfl

theorem det_at : val_main_v53 (F := Ideal) X (ix1 p) = det (m11 (X (ix2 p 1))) (m12 (X (ix2 p 1))) := by
  have e : val_main_v53 (F := Ideal) X (ix1 p) = val_main_v12 (F := Ideal) X (ix1 p) * kJ2 - val_main_v15 (F := Ideal) X (ix1 p) * val_main_v15 (F := Ideal) X (ix1 p) := rfl
  rw [e, m11_at, m12_at]
  rfl

/-- The arm's acceleration. -/
theorem acc1_at : val_main_v57 (F := Ideal) X U (ix1 p) = acc1 (m11 (X (ix2 p 1))) (m12 (X (ix2 p 1))) (rhs1 (X (ix2 p 2)) (U (ix2 p 0)) (n1 (X (ix2 p 1)) (X (ix2 p 2)) (X (ix2 p 3)))) (rhs2 (n2 (X (ix2 p 1)) (X (ix2 p 2))) (g2 (X (ix2 p 1)))) := by
  have e : val_main_v57 (F := Ideal) X U (ix1 p) = Ideal.div (kJ2 * val_main_v48 (F := Ideal) X U (ix1 p) - val_main_v15 (F := Ideal) X (ix1 p) * val_main_v50 (F := Ideal) X (ix1 p)) (val_main_v53 (F := Ideal) X (ix1 p)) := rfl
  rw [e, rhs1_at, rhs2_at, m12_at, det_at]
  rfl

/-- The pendulum's acceleration. -/
theorem acc2_at : val_main_v62 (F := Ideal) X U (ix1 p) = acc2 (m11 (X (ix2 p 1))) (m12 (X (ix2 p 1))) (rhs1 (X (ix2 p 2)) (U (ix2 p 0)) (n1 (X (ix2 p 1)) (X (ix2 p 2)) (X (ix2 p 3)))) (rhs2 (n2 (X (ix2 p 1)) (X (ix2 p 2))) (g2 (X (ix2 p 1)))) := by
  have e : val_main_v62 (F := Ideal) X U (ix1 p) = Ideal.div (-val_main_v15 (F := Ideal) X (ix1 p) * val_main_v48 (F := Ideal) X U (ix1 p) + val_main_v12 (F := Ideal) X (ix1 p) * val_main_v50 (F := Ideal) X (ix1 p)) (val_main_v53 (F := Ideal) X (ix1 p)) := rfl
  rw [e, rhs1_at, rhs2_at, m11_at, m12_at, det_at]
  rfl

/-! ## The derivative array's two acceleration columns -/

/-- Column 2 of the stacked derivative is the arm's acceleration. -/
theorem stack_at2 : val_main_v67 (F := Ideal) X U (ix2 p 2) = val_main_v57 (F := Ideal) X U (ix1 p) := by
  unfold val_main_v67
  refine Eq.trans (concatenate_apply_piece (t := S8388608x4) (1 : Fin 2)
    [⟨S8388608x1, val_main_v63 (F := Ideal) X⟩, ⟨S8388608x1, val_main_v64 (F := Ideal) X⟩, ⟨S8388608x1, val_main_v65 (F := Ideal) X U⟩, ⟨S8388608x1, val_main_v66 (F := Ideal) X U⟩]
    _ (ix2 p 2) 2 (show (2 : ℕ) < 4 by omega) S8388608x1 (val_main_v65 (F := Ideal) X U) rfl rfl 2 rfl
    (ix2 p 0) ?_ ?_) ?_
  · intro b hb
    match b with
    | ⟨0, _⟩ => rfl
    | ⟨1, _⟩ => exact absurd rfl hb
  · rfl
  · rw [val_main_v65_apply]
    refine congrArg (val_main_v57 (F := Ideal) X U) (funext fun d => Fin.ext ?_)
    match d with
    | ⟨0, _⟩ => rfl

/-- Column 3 of the stacked derivative is the pendulum's acceleration. -/
theorem stack_at3 : val_main_v67 (F := Ideal) X U (ix2 p 3) = val_main_v62 (F := Ideal) X U (ix1 p) := by
  unfold val_main_v67
  refine Eq.trans (concatenate_apply_piece (t := S8388608x4) (1 : Fin 2)
    [⟨S8388608x1, val_main_v63 (F := Ideal) X⟩, ⟨S8388608x1, val_main_v64 (F := Ideal) X⟩, ⟨S8388608x1, val_main_v65 (F := Ideal) X U⟩, ⟨S8388608x1, val_main_v66 (F := Ideal) X U⟩]
    _ (ix2 p 3) 3 (show (3 : ℕ) < 4 by omega) S8388608x1 (val_main_v66 (F := Ideal) X U) rfl rfl 3 rfl
    (ix2 p 0) ?_ ?_) ?_
  · intro b hb
    match b with
    | ⟨0, _⟩ => rfl
    | ⟨1, _⟩ => exact absurd rfl hb
  · rfl
  · rw [val_main_v66_apply]
    refine congrArg (val_main_v62 (F := Ideal) X U) (funext fun d => Fin.ext ?_)
    match d with
    | ⟨0, _⟩ => rfl

/-! ## The new velocities: the two kept columns of the first advance -/

/-- The arm's new velocity. -/
theorem vel1_at : val_main_v71 (F := Ideal) X U (ix2 p 0) = vel1 (X (ix2 p 1)) (X (ix2 p 2)) (X (ix2 p 3)) (U (ix2 p 0)) := by
  rw [val_main_v71_apply]
  have e : val_main_v70 (F := Ideal) X U (idx_main_v71 (ix2 p 0)) = val_main_v70 (F := Ideal) X U (ix2 p 2) :=
    congrArg _ (funext fun d => Fin.ext (by match d with | ⟨0, _⟩ => rfl | ⟨1, _⟩ => rfl))
  have e' : val_main_v70 (F := Ideal) X U (ix2 p 2) = X (ix2 p 2) + val_main_v67 (F := Ideal) X U (ix2 p 2) * kDt := rfl
  rw [e, e', stack_at2, acc1_at]
  rfl

/-- The pendulum's new velocity. -/
theorem vel2_at : val_main_v71 (F := Ideal) X U (ix2 p 1) = vel2 (X (ix2 p 1)) (X (ix2 p 2)) (X (ix2 p 3)) (U (ix2 p 0)) := by
  rw [val_main_v71_apply]
  have e : val_main_v70 (F := Ideal) X U (idx_main_v71 (ix2 p 1)) = val_main_v70 (F := Ideal) X U (ix2 p 3) :=
    congrArg _ (funext fun d => Fin.ext (by match d with | ⟨0, _⟩ => rfl | ⟨1, _⟩ => rfl))
  have e' : val_main_v70 (F := Ideal) X U (ix2 p 3) = X (ix2 p 3) + val_main_v67 (F := Ideal) X U (ix2 p 3) * kDt := rfl
  rw [e, e', stack_at3, acc2_at]
  rfl

/-! ## The new positions: the old positions advanced with the new velocities -/

theorem pos_at (k : Fin 2) : val_main_v75 (F := Ideal) X U (ix2 p k)
    = X (ix2 p (Fin.castLE (by decide) k)) + val_main_v71 (F := Ideal) X U (ix2 p k) * kDt := by
  have e : val_main_v75 (F := Ideal) X U (ix2 p k)
      = val_main_v72 (F := Ideal) X (ix2 p k) + val_main_v71 (F := Ideal) X U (ix2 p k) * kDt := rfl
  rw [e, val_main_v72_apply]
  refine congrArg (fun z => X z + _) (funext fun d => Fin.ext ?_)
  match d with
  | ⟨0, _⟩ => rfl
  | ⟨1, _⟩ => rfl

/-! ## The result, column by column -/

theorem res0 : val_main_v76 (F := Ideal) X U (ix2 p 0) = step (X (ix2 p 0)) (X (ix2 p 1)) (X (ix2 p 2)) (X (ix2 p 3)) (U (ix2 p 0)) 0 := by
  unfold val_main_v76
  refine (concatenate_pair_apply_left (t := S8388608x4) (s₁ := S8388608x2) (s₂ := S8388608x2) (1 : Fin 2) _ _ _ (ix2 p 0) rfl (ix2 p 0) ?_).trans ?_
  · intro b; match b with | ⟨0, _⟩ => rfl | ⟨1, _⟩ => rfl
  · rw [pos_at, vel1_at]; rfl

theorem res1 : val_main_v76 (F := Ideal) X U (ix2 p 1) = step (X (ix2 p 0)) (X (ix2 p 1)) (X (ix2 p 2)) (X (ix2 p 3)) (U (ix2 p 0)) 1 := by
  unfold val_main_v76
  refine (concatenate_pair_apply_left (t := S8388608x4) (s₁ := S8388608x2) (s₂ := S8388608x2) (1 : Fin 2) _ _ _ (ix2 p 1) rfl (ix2 p 1) ?_).trans ?_
  · intro b; match b with | ⟨0, _⟩ => rfl | ⟨1, _⟩ => rfl
  · rw [pos_at, vel2_at]; rfl

theorem res2 : val_main_v76 (F := Ideal) X U (ix2 p 2) = step (X (ix2 p 0)) (X (ix2 p 1)) (X (ix2 p 2)) (X (ix2 p 3)) (U (ix2 p 0)) 2 := by
  unfold val_main_v76
  refine (concatenate_pair_apply_right (t := S8388608x4) (s₁ := S8388608x2) (s₂ := S8388608x2) (1 : Fin 2) _ _ _ (ix2 p 2) rfl rfl (ix2 p 0) ?_ ?_).trans ?_
  · intro b hb; match b with | ⟨0, _⟩ => rfl | ⟨1, _⟩ => exact absurd rfl hb
  · rfl
  · rw [vel1_at]; rfl

theorem res3 : val_main_v76 (F := Ideal) X U (ix2 p 3) = step (X (ix2 p 0)) (X (ix2 p 1)) (X (ix2 p 2)) (X (ix2 p 3)) (U (ix2 p 0)) 3 := by
  unfold val_main_v76
  refine (concatenate_pair_apply_right (t := S8388608x4) (s₁ := S8388608x2) (s₂ := S8388608x2) (1 : Fin 2) _ _ _ (ix2 p 3) rfl rfl (ix2 p 1) ?_ ?_).trans ?_
  · intro b hb; match b with | ⟨0, _⟩ => rfl | ⟨1, _⟩ => exact absurd rfl hb
  · rfl
  · rw [vel2_at]; rfl

/-- THE REFERENCE'S RESULT is the step of the arguments, row by row. -/
theorem result_eq : val_main_v76 (F := Ideal) X U = Pendulum.G (n := 8388608) X U := by
  funext i
  obtain ⟨p, k, rfl⟩ : ∃ (p : Fin 8388608) (k : Fin 4), i = ix2 p k := ⟨i 0, i 1, eq_ix2 i⟩
  match k with
  | ⟨0, _⟩ => exact res0 X U p
  | ⟨1, _⟩ => exact res1 X U p
  | ⟨2, _⟩ => exact res2 X U p
  | ⟨3, _⟩ => exact res3 X U p

end Cert.ReferenceIdeal.Rows

end
-- ==== Proof.lean ====
/-
  The kernel steps a batch of 8,388,608 rotary (Furuta) pendulums by one semi-implicit Euler step, 4096 rows per
  grid point, column by column; the reference does the same with whole-array operations. At the extended reals
  both results are ONE function of the arguments (Proof/Step.lean): entry (r, k) is component k of the step of
  row r. The kernel's side is read off its generated frame run block by block (Proof/KernelBlock.lean: what the
  body leaves; Proof/KernelArray.lean: the blocks cover the array), the reference's off its generated run stage by
  stage (Proof/Reference.lean). The two programs differ only in how three products are grouped, in a zero that
  the reference subtracts, and in a negation the kernel writes as a difference from zero: laws of the extended
  reals that hold at every value, so the finiteness of the inputs is never used.

  The three frames are the generated ones (the reference's is its generated run with the result dropped), and
  the kernel's idealization rewrote no operation.
-/
import proofs.«141720_j82085414961423_2_alg».proof.Defs
import proofs.«141720_j82085414961423_2_alg».proof.Proof.Gen.Kernel
import proofs.«141720_j82085414961423_2_alg».proof.Proof.Gen.Kernel.Skeleton
import proofs.«141720_j82085414961423_2_alg».proof.Proof.Gen.Kernel.Launch
import proofs.«141720_j82085414961423_2_alg».proof.Proof.Gen.Kernel.Points
import proofs.«141720_j82085414961423_2_alg».proof.Proof.Gen.Kernel.Frame
import proofs.«141720_j82085414961423_2_alg».proof.Proof.Gen.KernelIdeal
import proofs.«141720_j82085414961423_2_alg».proof.Proof.Gen.KernelIdeal.Skeleton
import proofs.«141720_j82085414961423_2_alg».proof.Proof.Gen.KernelIdeal.Launch
import proofs.«141720_j82085414961423_2_alg».proof.Proof.Gen.KernelIdeal.Points
import proofs.«141720_j82085414961423_2_alg».proof.Proof.Gen.KernelIdeal.Frame
import proofs.«141720_j82085414961423_2_alg».proof.Proof.Gen.ReferenceIdeal
import proofs.«141720_j82085414961423_2_alg».proof.Proof.Gen.Pre_finite_inputs
import proofs.«141720_j82085414961423_2_alg».proof.Proof.Gen.KernelIdeal.Value
import proofs.«141720_j82085414961423_2_alg».proof.Proof.Gen.ReferenceIdeal.Run
import proofs.«141720_j82085414961423_2_alg».proof.Proof.Gen.ReferenceIdeal.Read
import proofs.«141720_j82085414961423_2_alg».proof.Proof.KernelArray
import proofs.«141720_j82085414961423_2_alg».proof.Proof.Reference
import Idealize.ShloMosaic.Adequacy
import Idealize.ShloMosaic.Init

noncomputable section

namespace Cert.Proof

open Idealize.ShloMosaic Idealize.SL.Sem Cert.Kernel

/-- Both idealized programs, run from memories that agree on the arguments, end with the step of the arguments
    in their result arrays. -/
theorem algebraic : Cert.algebraic_KernelIdeal_ReferenceIdeal := by
  intro m ρ m' ρ' _ hagree
  refine ⟨_, Cert.KernelIdeal.Array.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v76_eq, Cert.ReferenceIdeal.Rows.result_eq, (hagree c).1, (hagree c).2]

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.Value.run (F := Ideal) m ρ),
  trivial,
  algebraic⟩

end Cert.Proof

end
